-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 109
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S_, .f32⟩
  | .hbm, ⟨90, _⟩ => ⟨S256x64, .f32⟩
  | .hbm, ⟨91, _⟩ => ⟨S50000x1, .i32⟩
  | .hbm, ⟨92, _⟩ => ⟨S256x64, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S256, .f32⟩
  | .hbm, ⟨97, _⟩ => ⟨S50000x1, .i32⟩
  | .hbm, ⟨98, _⟩ => ⟨S256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256x1, .f32⟩
  | .hbm, ⟨103, _⟩ => ⟨S256x64, .f32⟩
  | .hbm, ⟨104, _⟩ => ⟨S256x64, .f32⟩
  | .hbm, ⟨105, _⟩ => ⟨S1x64, .f32⟩
  | .hbm, ⟨106, _⟩ => ⟨S1x1, .f32⟩
  | .hbm, ⟨107, _⟩ => ⟨S256x1, .f32⟩
  | .hbm, ⟨108, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S256x64, .f32⟩
  | .local _ .vmem, ⟨21, _⟩ => ⟨S64x64, .f32⟩
  | .local _ .vmem, ⟨22, _⟩ => ⟨S1x64, .f32⟩
  | .local _ .vmem, ⟨23, _⟩ => ⟨S64x1, .f32⟩
  | .local _ .vmem, ⟨24, _⟩ => ⟨S1x1, .f32⟩
  | .local _ .vmem, ⟨25, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S256x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S256x64, .f32⟩
  | .hbm, ⟨99, _⟩ => ⟨S50000x1, .i32⟩
  | .hbm, ⟨100, _⟩ => ⟨S256x64, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S256, .f32⟩
  | .hbm, ⟨105, _⟩ => ⟨S50000x1, .i32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256x1, .f32⟩
  | .hbm, ⟨111, _⟩ => ⟨S256x64, .f32⟩
  | .hbm, ⟨112, _⟩ => ⟨S256x64, .f32⟩
  | .hbm, ⟨113, _⟩ => ⟨S256x64, .f32⟩
  | .hbm, ⟨114, _⟩ => ⟨S1x64, .f32⟩
  | .hbm, ⟨115, _⟩ => ⟨S256x64, .f32⟩
  | .hbm, ⟨116, _⟩ => ⟨S256x64, .f32⟩
  | .hbm, ⟨117, _⟩ => ⟨S_, .f32⟩
  | .hbm, ⟨118, _⟩ => ⟨S256x64, .f32⟩
  | .hbm, ⟨119, _⟩ => ⟨S256x64, .f32⟩
  | .hbm, ⟨120, _⟩ => ⟨S256x1, .f32⟩
  | .hbm, ⟨121, _⟩ => ⟨S1x1, .f32⟩
  | .hbm, ⟨122, _⟩ => ⟨S256x1, .f32⟩
  | .hbm, ⟨123, _⟩ => ⟨S256x1, .f32⟩
  | .hbm, ⟨124, _⟩ => ⟨S256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call3_cst : Ref sig .tc := ⟨.hbm, 117, rfl⟩
abbrev main_call3_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
/-
  The kernel program's run with its result named.  @main is twelve segments: seven stretches of host
  operations and five pipelined kernel regions.  Along them the core's buffer contents are a fold
  `W0, W1, …, W12` from the launch memory: a host stretch maps the contents through its operations,
  a region replaces each of its arrays by what its write-backs leave and keeps every other buffer.
  Every weakly fair execution terminates with every unscoped buffer at the last contents `W12`; the
  frame keeps of that only the argument arrays.  Here the result buffer is kept as well: it ends
  holding `W12` at the result's reference, and the arguments end as launched.  What `W12` holds there,
  as a function of the arguments, is the business of the modules that import this one.
-/
import proofs.«117743_j53549652246670_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the last
    boundary's contents and the argument arrays as launched: the launch over the twelve segments, the last
    thread state read against the final state, the result's reference being one of the unscoped buffers. -/
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Result

end
-- ==== Proof.Keep.lean ====
/-
  What each stretch of host operations leaves alone.  A stretch writes exactly the result buffers of
  its operations; every other buffer of the core holds after the stretch what it held before it.  A
  kernel region changes only its own arrays.  So a buffer that no stretch up to a boundary writes and
  that is no array of a region up to that boundary holds there what it held at an earlier boundary:
  an argument array its launch contents, an intermediate of the first three stretches (the edge
  endpoints and the edge weights, which both later layers read again) its value at the first region's
  entry.
-/
import proofs.«117743_j53549652246670_1_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]

/-- The result buffers of `hostOps0`'s operations, in order. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps0` does not write is unchanged by it. -/
theorem keep0 (W : Valuation τ sig (Elt F)) (r : Ref sig .tc) (h : r ∉ written0) :
    StableHlo.after hostOps0 W (Proc.devRef .tc r) = W (Proc.devRef .tc r) :=
  StableHlo.after_of_writes_sub hostOps0 W writes0 h

/-- The result buffers of `hostOps0_1`'s operations, in order. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps0_1` does not write is unchanged by it. -/
theorem keep0_1 (W : Valuation τ sig (Elt F)) (r : Ref sig .tc) (h : r ∉ written0_1) :
    StableHlo.after hostOps0_1 W (Proc.devRef .tc r) = W (Proc.devRef .tc r) :=
  StableHlo.after_of_writes_sub hostOps0_1 W writes0_1 h

/-- The result buffers of `hostOps0_2`'s operations, in order. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps0_2` does not write is unchanged by it. -/
theorem keep0_2 (W : Valuation τ sig (Elt F)) (r : Ref sig .tc) (h : r ∉ written0_2) :
    StableHlo.after hostOps0_2 W (Proc.devRef .tc r) = W (Proc.devRef .tc r) :=
  StableHlo.after_of_writes_sub hostOps0_2 W writes0_2 h

/-- The result buffers of `hostOps1`'s operations, in order. -/
abbrev written1 : List (Ref sig .tc) := [main_c_6, main_v31, main_v32, main_c_7, main_v33, main_v34, main_v35, main_v36, main_v37, main_v38, main_v39, main_v40, main_cst_8, main_v41, main_v42, main_v43, main_v44]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps1` does not write is unchanged by it. -/
theorem keep1 (W : Valuation τ sig (Elt F)) (r : Ref sig .tc) (h : r ∉ written1) :
    StableHlo.after hostOps1 W (Proc.devRef .tc r) = W (Proc.devRef .tc r) :=
  StableHlo.after_of_writes_sub hostOps1 W writes1 h

/-- The result buffers of `hostOps3`'s operations, in order. -/
abbrev written3 : List (Ref sig .tc) := [main_c_9, main_v47, main_v48, main_c_10, main_v49, main_v50, main_v51, main_v52, main_v53, main_v54, main_v55, main_v56, main_cst_11, main_v57, main_v58, main_v59, main_v60]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps3` does not write is unchanged by it. -/
theorem keep3 (W : Valuation τ sig (Elt F)) (r : Ref sig .tc) (h : r ∉ written3) :
    StableHlo.after hostOps3 W (Proc.devRef .tc r) = W (Proc.devRef .tc r) :=
  StableHlo.after_of_writes_sub hostOps3 W writes3 h

/-- The result buffers of `hostOps4`'s operations, in order. -/
abbrev written4 : List (Ref sig .tc) := [main_cst_12, main_v62, main_v63, main_v64, main_cst_13, main_v65, main_cst_14, main_v66, main_v67, main_v68, main_cst_15, main_v69, main_v70, main_v71, main_v72, main_v73, main_v74, main_v75]
theorem writes4 : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps4` does not write is unchanged by it. -/
theorem keep4 (W : Valuation τ sig (Elt F)) (r : Ref sig .tc) (h : r ∉ written4) :
    StableHlo.after hostOps4 W (Proc.devRef .tc r) = W (Proc.devRef .tc r) :=
  StableHlo.after_of_writes_sub hostOps4 W writes4 h

/-- The result buffers of `hostOps5`'s operations, in order. -/
abbrev written5 : List (Ref sig .tc) := [main_v77]
theorem writes5 : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)
/-- A buffer `hostOps5` does not write is unchanged by it. -/
theorem keep5 (W : Valuation τ sig (Elt F)) (r : Ref sig .tc) (h : r ∉ written5) :
    StableHlo.after hostOps5 W (Proc.devRef .tc r) = W (Proc.devRef .tc r) :=
  StableHlo.after_of_writes_sub hostOps5 W writes5 h

variable (m : (ℓ : Loc nD τ sig) → Buf (Elt F) ℓ) (ρ : Dev nD → PrngReg)

/-- At the first region's entry a buffer none of the first three stretches writes holds its launch contents. -/
theorem W3_of (c : Dev nD) (r : Ref sig .tc) (h0 : r ∉ written0) (h1 : r ∉ written0_1) (h2 : r ∉ written0_2) :
    W3 m ρ c (Proc.devRef .tc r) = m ((c : Thread nD τ).loc r) :=
  (keep0_2 _ r h2).trans ((keep0_1 _ r h1).trans ((keep0 _ r h0).trans rfl))

/-- Across the first region. -/
theorem W4_of (c : Dev nD) (r : Ref sig .tc) (a0 : ∀ w, Pipeline.arrRef spec0 w ≠ r) :
    W4 m ρ c (Proc.devRef .tc r) = W3 m ρ c (Proc.devRef .tc r) := W4_of_ne m ρ c r a0

/-- Up to the third region's entry (the first region, the first layer's edge stretch, the second region). -/
theorem W6_of (c : Dev nD) (r : Ref sig .tc) (a0 : ∀ w, Pipeline.arrRef spec0 w ≠ r) (h1 : r ∉ written1)
    (a1 : ∀ w, Pipeline.arrRef spec1 w ≠ r) :
    W6 m ρ c (Proc.devRef .tc r) = W3 m ρ c (Proc.devRef .tc r) :=
  (W6_of_ne m ρ c r a1).trans ((keep1 _ r h1).trans (W4_of m ρ c r a0))

/-- Up to the second layer's edge stretch. -/
theorem W7_of (c : Dev nD) (r : Ref sig .tc) (a0 : ∀ w, Pipeline.arrRef spec0 w ≠ r) (h1 : r ∉ written1)
    (a1 : ∀ w, Pipeline.arrRef spec1 w ≠ r) (a2 : ∀ w, Pipeline.arrRef spec2 w ≠ r) :
    W7 m ρ c (Proc.devRef .tc r) = W3 m ρ c (Proc.devRef .tc r) :=
  (W7_of_ne m ρ c r a2).trans (W6_of m ρ c r a0 h1 a1)

/-- Up to the pooling stretch. -/
theorem W9_of (c : Dev nD) (r : Ref sig .tc) (a0 : ∀ w, Pipeline.arrRef spec0 w ≠ r) (h1 : r ∉ written1)
    (a1 : ∀ w, Pipeline.arrRef spec1 w ≠ r) (a2 : ∀ w, Pipeline.arrRef spec2 w ≠ r) (h3 : r ∉ written3)
    (a3 : ∀ w, Pipeline.arrRef spec3 w ≠ r) :
    W9 m ρ c (Proc.devRef .tc r) = W3 m ρ c (Proc.devRef .tc r) :=
  (W9_of_ne m ρ c r a3).trans ((keep3 _ r h3).trans (W7_of m ρ c r a0 h1 a1 a2))

/-- Up to the last region's entry. -/
theorem W10_of (c : Dev nD) (r : Ref sig .tc) (a0 : ∀ w, Pipeline.arrRef spec0 w ≠ r) (h1 : r ∉ written1)
    (a1 : ∀ w, Pipeline.arrRef spec1 w ≠ r) (a2 : ∀ w, Pipeline.arrRef spec2 w ≠ r) (h3 : r ∉ written3)
    (a3 : ∀ w, Pipeline.arrRef spec3 w ≠ r) (h4 : r ∉ written4) :
    W10 m ρ c (Proc.devRef .tc r) = W3 m ρ c (Proc.devRef .tc r) :=
  (keep4 _ r h4).trans (W9_of m ρ c r a0 h1 a1 a2 h3 a3)

end Cert.KernelIdeal.Keep

end
-- ==== Proof.BlockDot.lean ====
/-
  A block matmul read at an index.  Each kernel body multiplies a block of rows by a weight matrix kept
  whole: [M, K] times [K, N] into a zero accumulator.  On the extended reals the entry (p, q) of the
  product is the accumulator's zero plus the sum over the contracted axis of the products
  `x (p, k) * w (k, q)`, and that is all there is to it: no rounding, no order of summation.  The dot's
  contraction index is a one-axis index of extent K; re-indexed by `Fin K` the operands' indices at
  output index `j` are `(j 0, k)` and `(k, j 1)`.  One statement per block shape of this program.
-/
import proofs.«117743_j53549652246670_1_alg».proof.Proof.Gen.KernelIdeal
import Idealize.ShloMosaic.Lib.ValueIdx
import Idealize.ShloMosaic.PureOps.Ideal.Laws

noncomputable section

namespace Cert.KernelIdeal.BlockDot

open Idealize.ShloMosaic Cert.KernelIdeal

/-! ## [5000, 128] times [128, 64] -/

/-- The left operand's index for output index `j` and contraction position `k`: row `j 0`, column `k`. -/
abbrev lix_5000_128_64 (j : S5000x64.Idx) (k : Fin 128) : S5000x128.Idx := fun a => match a with
  | ⟨0, _⟩ => ⟨(j 0).val, (j 0).isLt⟩
  | ⟨1, _⟩ => ⟨k.val, k.isLt⟩
/-- The right operand's index: row `k`, column `j 1`. -/
abbrev rix_5000_128_64 (j : S5000x64.Idx) (k : Fin 128) : S128x64.Idx := fun a => match a with
  | ⟨0, _⟩ => ⟨k.val, k.isLt⟩
  | ⟨1, _⟩ => ⟨(j 1).val, (j 1).isLt⟩

theorem lhs0_5000_128_64 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_5000_128_64 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem rhs0_5000_128_64 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem rhs1_5000_128_64 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into the zero accumulator, at an index: the sum over the contracted axis. -/
theorem matmul_5000_128_64 {φ₁ φ₂ : FTy} (x : FVec Ideal S5000x128 φ₁) (w : FVec Ideal S128x64 φ₂) (j : S5000x64.Idx) :
    FloatOps.matmul dot_S5000x128_S128x64_S5000x64_1_0_0_1_n_n none x w (constant S5000x64 .f32 0x00000000#32) j
      = ∑ k : Fin 128, x (lix_5000_128_64 j k) * w (rix_5000_128_64 j k) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lix_5000_128_64 j k := funext fun a => Fin.ext (by
    match a with
    | ⟨0, _⟩ => exact lhs0_5000_128_64 _ _
    | ⟨1, _⟩ => exact (lhs1_5000_128_64 _ _).trans hk)
  have er : dot_S5000x128_S128x64_S5000x64_1_0_0_1_n_n.rhsIdx j ((ValueIdx.contrEquiv1 dot_S5000x128_S128x64_S5000x64_1_0_0_1_n_n 128 rfl rfl).symm k) = rix_5000_128_64 j k := funext fun a => Fin.ext (by
    match a with
    | ⟨0, _⟩ => exact (rhs0_5000_128_64 _ _).trans hk
    | ⟨1, _⟩ => exact rhs1_5000_128_64 _ _)
  rw [el, er]

/-! ## [5000, 64] times [64, 64] -/

/-- The left operand's index for output index `j` and contraction position `k`: row `j 0`, column `k`. -/
abbrev lix_5000_64_64 (j : S5000x64.Idx) (k : Fin 64) : S5000x64.Idx := fun a => match a with
  | ⟨0, _⟩ => ⟨(j 0).val, (j 0).isLt⟩
  | ⟨1, _⟩ => ⟨k.val, k.isLt⟩
/-- The right operand's index: row `k`, column `j 1`. -/
abbrev rix_5000_64_64 (j : S5000x64.Idx) (k : Fin 64) : S64x64.Idx := fun a => match a with
  | ⟨0, _⟩ => ⟨k.val, k.isLt⟩
  | ⟨1, _⟩ => ⟨(j 1).val, (j 1).isLt⟩

theorem lhs0_5000_64_64 (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_5000_64_64 (j : S5000x64.Idx) (q : dot_S5000x64_S64x64_S5000x64_1_0_0_1_n_n.contr.Idx) : (dot_S5000x64_S64x64_S5000x64_1_0_0_1_n_n.lhsIdx j q 1).val = (q ⟨0, by decide⟩).val :=
  dot_S5000x64_S64x64_S5000x64_1_0_0_1_n_n.lhsIdx_val_of_single rfl j q
theorem rhs0_5000_64_64 (j : S5000x64.Idx) (q : dot_S5000x64_S64x64_S5000x64_1_0_0_1_n_n.contr.Idx) : (dot_S5000x64_S64x64_S5000x64_1_0_0_1_n_n.rhsIdx j q 0).val = (q ⟨0, by decide⟩).val :=
  dot_S5000x64_S64x64_S5000x64_1_0_0_1_n_n.rhsIdx_val_of_single rfl j q
theorem rhs1_5000_64_64 (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator, at an index: the sum over the contracted axis. -/
theorem matmul_5000_64_64 {φ₁ φ₂ : FTy} (x : FVec Ideal S5000x64 φ₁) (w : FVec Ideal S64x64 φ₂) (j : S5000x64.Idx) :
    FloatOps.matmul dot_S5000x64_S64x64_S5000x64_1_0_0_1_n_n none x w (constant S5000x64 .f32 0x00000000#32) j
      = ∑ k : Fin 64, x (lix_5000_64_64 j k) * w (rix_5000_64_64 j k) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lix_5000_64_64 j k := funext fun a => Fin.ext (by
    match a with
    | ⟨0, _⟩ => exact lhs0_5000_64_64 _ _
    | ⟨1, _⟩ => exact (lhs1_5000_64_64 _ _).trans hk)
  have er : dot_S5000x64_S64x64_S5000x64_1_0_0_1_n_n.rhsIdx j ((ValueIdx.contrEquiv1 dot_S5000x64_S64x64_S5000x64_1_0_0_1_n_n 64 rfl rfl).symm k) = rix_5000_64_64 j k := funext fun a => Fin.ext (by
    match a with
    | ⟨0, _⟩ => exact (rhs0_5000_64_64 _ _).trans hk
    | ⟨1, _⟩ => exact rhs1_5000_64_64 _ _)
  rw [el, er]

/-! ## [256, 64] times [64, 64] -/

/-- The left operand's index for output index `j` and contraction position `k`: row `j 0`, column `k`. -/
abbrev lix_256_64_64 (j : S256x64.Idx) (k : Fin 64) : S256x64.Idx := fun a => match a with
  | ⟨0, _⟩ => ⟨(j 0).val, (j 0).isLt⟩
  | ⟨1, _⟩ => ⟨k.val, k.isLt⟩
/-- The right operand's index: row `k`, column `j 1`. -/
abbrev rix_256_64_64 (j : S256x64.Idx) (k : Fin 64) : S64x64.Idx := fun a => match a with
  | ⟨0, _⟩ => ⟨k.val, k.isLt⟩
  | ⟨1, _⟩ => ⟨(j 1).val, (j 1).isLt⟩

theorem lhs0_256_64_64 (j : S256x64.Idx) (q : dot_S256x64_S64x64_S256x64_1_0_0_1_n_n.contr.Idx) : (dot_S256x64_S64x64_S256x64_1_0_0_1_n_n.lhsIdx j q 0).val = (j 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem lhs1_256_64_64 (j : S256x64.Idx) (q : dot_S256x64_S64x64_S256x64_1_0_0_1_n_n.contr.Idx) : (dot_S256x64_S64x64_S256x64_1_0_0_1_n_n.lhsIdx j q 1).val = (q ⟨0, by decide⟩).val :=
  dot_S256x64_S64x64_S256x64_1_0_0_1_n_n.lhsIdx_val_of_single rfl j q
theorem rhs0_256_64_64 (j : S256x64.Idx) (q : dot_S256x64_S64x64_S256x64_1_0_0_1_n_n.contr.Idx) : (dot_S256x64_S64x64_S256x64_1_0_0_1_n_n.rhsIdx j q 0).val = (q ⟨0, by decide⟩).val :=
  dot_S256x64_S64x64_S256x64_1_0_0_1_n_n.rhsIdx_val_of_single rfl j q
theorem rhs1_256_64_64 (j : S256x64.Idx) (q : dot_S256x64_S64x64_S256x64_1_0_0_1_n_n.contr.Idx) : (dot_S256x64_S64x64_S256x64_1_0_0_1_n_n.rhsIdx j q 1).val = (j 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- The product into the zero accumulator, at an index: the sum over the contracted axis. -/
theorem matmul_256_64_64 {φ₁ φ₂ : FTy} (x : FVec Ideal S256x64 φ₁) (w : FVec Ideal S64x64 φ₂) (j : S256x64.Idx) :
    FloatOps.matmul dot_S256x64_S64x64_S256x64_1_0_0_1_n_n none x w (constant S256x64 .f32 0x00000000#32) j
      = ∑ k : Fin 64, x (lix_256_64_64 j k) * w (rix_256_64_64 j k) := by
  rw [Ideal.matmul_constant_zero_apply, ← Equiv.sum_comp (ValueIdx.contrEquiv1 dot_S256x64_S64x64_S256x64_1_0_0_1_n_n 64 rfl rfl).symm]
  refine Finset.sum_congr rfl fun k _ => ?_
  have hk := ValueIdx.contrEquiv1_symm_val dot_S256x64_S64x64_S256x64_1_0_0_1_n_n 64 rfl rfl k
  have el : dot_S256x64_S64x64_S256x64_1_0_0_1_n_n.lhsIdx j ((ValueIdx.contrEquiv1 dot_S256x64_S64x64_S256x64_1_0_0_1_n_n 64 rfl rfl).symm k) = lix_256_64_64 j k := funext fun a => Fin.ext (by
    match a with
    | ⟨0, _⟩ => exact lhs0_256_64_64 _ _
    | ⟨1, _⟩ => exact (lhs1_256_64_64 _ _).trans hk)
  have er : dot_S256x64_S64x64_S256x64_1_0_0_1_n_n.rhsIdx j ((ValueIdx.contrEquiv1 dot_S256x64_S64x64_S256x64_1_0_0_1_n_n 64 rfl rfl).symm k) = rix_256_64_64 j k := funext fun a => Fin.ext (by
    match a with
    | ⟨0, _⟩ => exact (rhs0_256_64_64 _ _).trans hk
    | ⟨1, _⟩ => exact rhs1_256_64_64 _ _)
  rw [el, er]

/-! ## [256, 64] times [64, 1] -/

/-- The left operand's index for output index `j` and contraction position `k`: row `j 0`, column `k`. -/
abbrev lix_256_64_1 (j : S256x1.Idx) (k : Fin 64) : S256x64.Idx := fun a => match a with
  | ⟨0, _⟩ => ⟨(j 0).val, (j 0).isLt⟩
  | ⟨1, _⟩ => ⟨k.val, k.isLt⟩
/-- The right operand's index: row `k`, column `j 1`. -/
abbrev rix_256_64_1 (j : S256x1.Idx) (k : Fin 64) : S64x1.Idx := fun a => match a with
  | ⟨0, _⟩ => ⟨k.val, k.isLt⟩
  | ⟨1, _⟩ => ⟨(j 1).val, (j 1).isLt⟩

theorem lhs0_256_64_1 (j : S256x1.Idx) (q : dot_S256x64_S64x1_S256x1_1_0_0_1_n_n.contr.Idx) : (dot_S256x64_S64x1_S256x1_1_0_0_1_n_n.lhsIdx j q 0).val = (j 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem lhs1_256_64_1 (j : S256x1.Idx) (q : dot_S256x64_S64x1_S256x1_1_0_0_1_n_n.contr.Idx) : (dot_S256x64_S64x1_S256x1_1_0_0_1_n_n.lhsIdx j q 1).val = (q ⟨0, by decide⟩).val :=
  dot_S256x64_S64x1_S256x1_1_0_0_1_n_n.lhsIdx_val_of_single rfl j q
theorem rhs0_256_64_1 (j : S256x1.Idx) (q : dot_S256x64_S64x1_S256x1_1_0_0_1_n_n.contr.Idx) : (dot_S256x64_S64x1_S256x1_1_0_0_1_n_n.rhsIdx j q 0).val = (q ⟨0, by decide⟩).val :=
  dot_S256x64_S64x1_S256x1_1_0_0_1_n_n.rhsIdx_val_of_single rfl j q
theorem rhs1_256_64_1 (j : S256x1.Idx) (q : dot_S256x64_S64x1_S256x1_1_0_0_1_n_n.contr.Idx) : (dot_S256x64_S64x1_S256x1_1_0_0_1_n_n.rhsIdx j q 1).val = (j 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl

/-- The product into the zero accumulator, at an index: the sum over the contracted axis. -/
theorem matmul_256_64_1 {φ₁ φ₂ : FTy} (x : FVec Ideal S256x64 φ₁) (w : FVec Ideal S64x1 φ₂) (j : S256x1.Idx) :
    FloatOps.matmul dot_S256x64_S64x1_S256x1_1_0_0_1_n_n none x w (constant S256x1 .f32 0x00000000#32) j
      = ∑ k : Fin 64, x (lix_256_64_1 j k) * w (rix_256_64_1 j k) := by
  rw [Ideal.matmul_constant_zero_apply, ← Equiv.sum_comp (ValueIdx.contrEquiv1 dot_S256x64_S64x1_S256x1_1_0_0_1_n_n 64 rfl rfl).symm]
  refine Finset.sum_congr rfl fun k _ => ?_
  have hk := ValueIdx.contrEquiv1_symm_val dot_S256x64_S64x1_S256x1_1_0_0_1_n_n 64 rfl rfl k
  have el : dot_S256x64_S64x1_S256x1_1_0_0_1_n_n.lhsIdx j ((ValueIdx.contrEquiv1 dot_S256x64_S64x1_S256x1_1_0_0_1_n_n 64 rfl rfl).symm k) = lix_256_64_1 j k := funext fun a => Fin.ext (by
    match a with
    | ⟨0, _⟩ => exact lhs0_256_64_1 _ _
    | ⟨1, _⟩ => exact (lhs1_256_64_1 _ _).trans hk)
  have er : dot_S256x64_S64x1_S256x1_1_0_0_1_n_n.rhsIdx j ((ValueIdx.contrEquiv1 dot_S256x64_S64x1_S256x1_1_0_0_1_n_n 64 rfl rfl).symm k) = rix_256_64_1 j k := funext fun a => Fin.ext (by
    match a with
    | ⟨0, _⟩ => exact (rhs0_256_64_1 _ _).trans hk
    | ⟨1, _⟩ => exact rhs1_256_64_1 _ _)
  rw [el, er]

end Cert.KernelIdeal.BlockDot

end
-- ==== Proof.Dense1.lean ====
/-
  The first layer's linear map: the node features times the first weight matrix, [50000, 128] by [128, 64].
  The kernel region tiles the rows in ten blocks of 5000 and keeps the weight matrix whole; point `t` multiplies
  rows 5000 t … 5000 t + 4999 by the weights into a zero accumulator (the casts to the narrower float format
  are the identity on the extended reals) and writes the product back as the same rows of the output.  The
  reference multiplies the whole [50000, 128] array by the weights at once.  Entry (r, q) of either is the sum
  over k of `h (r, k) * W (k, q)`, and row r of the whole array is row `r - 5000 t` of block `t = r / 5000`; so
  every block written back is the reference's product read through the block, the blocks cover the array, and
  the region's output array IS the reference's product.  Stated for any buffer contents `V` at the region's
  entry, given what `V` holds in the two operand arrays.
-/
import proofs.«117743_j53549652246670_1_alg».proof.Proof.Gen.KernelIdeal.Frame
import proofs.«117743_j53549652246670_1_alg».proof.Proof.RefReadP
import proofs.«117743_j53549652246670_1_alg».proof.Proof.BlockDot
import Idealize.ShloMosaic.Lib.Pipeline.Value
import Idealize.ShloMosaic.Lib.ValueIdx

set_option maxRecDepth 16384

noncomputable section

namespace Cert.KernelIdeal.Dense1

open Idealize.ShloMosaic Idealize.ShloMosaic.TcCoe Idealize.SL.Sem
open Idealize.ShloMosaic.Pipeline (Dat)
open Cert.KernelIdeal Cert.KernelIdeal.Gen Cert.KernelIdeal.BlockDot

variable (V : (c : Dev nD) → (b : Ref sig .tc) → Buf (Elt Ideal) ((c : Thread nD τ).loc b))

theorem hz : (![0, 0] : Fin 2 → Nat) = fun _ => 0 := funext fun a => by fin_cases a <;> rfl

/-- The block offsets of the three windows, decided once over the grid: the row-block index of the tiled input and
    of the output is the point's number, the operand kept whole sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the output array lies in point `t`'s block iff each coordinate lies in the block's range. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The ten row blocks of 5000 cover the 50000 rows: row `r` lies in the block of point `r / 5000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  refine ⟨⟨(i 0).val / 5000, ht⟩, flush0_2 _, ?_⟩
  rw [mem_blk]
  obtain ⟨-, -, -, -, e4, e5⟩ := idx_facts (⟨(i 0).val / 5000, ht⟩ : Fin cfg0.N)
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- What point `t` writes back is the reference's product read through the point's block. -/
theorem flushed_eq (c : Dev nD) (a0 : (⟨S50000x128, .f32⟩ : BufTy).Contents (Elt Ideal)) (a3 : (⟨S128x64, .f32⟩ : BufTy).Contents (Elt Ideal)) (h0 : V c main_arg0 = a0) (h3 : V c main_arg3 = a3) (t : Fin cfg0.N) :
    (dat0 V c).flushed 2 t = ((cfg0.win 2).blk t).view.read (Elt Ideal) (Cert.ReferenceIdeal.ReadP.val_main_v30 (F := Ideal) a0 a3) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨f0, f1, f2, f3, f4, f5⟩ := idx_facts t
  funext j
  show k0_pay1 (iblk0 V c 0 t) (iblk0 V c 1 t) j = Cert.ReferenceIdeal.ReadP.val_main_v30 (F := Ideal) a0 a3 (((cfg0.win 2).blk t).view.emb j)
  rw [Cert.ReferenceIdeal.ReadP.val_main_v30_apply]
  unfold k0_pay1
  dsimp only
  refine (matmul_5000_128_64 _ _ j).trans ?_
  refine Finset.sum_congr rfl fun k _ => ?_
  have e0 : ((cfg0.win 0).blk t).view.emb (lix_5000_128_64 j k) = Cert.ReferenceIdeal.ReadP.lidx_main_v30 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have e1 : ((cfg0.win 1).blk t).view.emb (rix_5000_128_64 j k) = Cert.ReferenceIdeal.ReadP.ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  refine congrArg₂ (· * ·) ?_ ?_
  · show V c main_arg0 (((cfg0.win 0).blk t).view.emb (lix_5000_128_64 j k)) = _
    exact (congrArg (V c main_arg0) e0).trans (congrFun h0 _)
  · show V c main_arg3 (((cfg0.win 1).blk t).view.emb (rix_5000_128_64 j k)) = _
    exact (congrArg (V c main_arg3) e1).trans (congrFun h3 _)

/-- The region's output array after its ten points is the reference's product. -/
theorem array (c : Dev nD) (a0 : (⟨S50000x128, .f32⟩ : BufTy).Contents (Elt Ideal)) (a3 : (⟨S128x64, .f32⟩ : BufTy).Contents (Elt Ideal)) (h0 : V c main_arg0 = a0) (h3 : V c main_arg3 = a3) :
    (dat0 V c).arrAt 2 cfg0.N = Cert.ReferenceIdeal.ReadP.val_main_v30 (F := Ideal) a0 a3 :=
  (dat0 V c).arrAt_eq_of_cover 2 _ (fun t _ => flushed_eq V c a0 a3 h0 h3 t) cover

end Cert.KernelIdeal.Dense1

end
-- ==== Proof.Act1.lean ====
/-
  The first layer's activation: an aggregate plus the first bias, rectified.
  The kernel region tiles the 50000 rows in ten blocks of 5000 and keeps the bias, laid out as one row
  [1, 64], whole; point `t` adds the bias row to every row of its block and takes the maximum with zero.  The
  reference broadcasts the bias [64] to [1, 64] and then over all 50000 rows, adds, and takes the maximum with
  a zero splat.  Entry (r, q) of either is `max (g (r, q) + b q) 0`, and row r of the whole array is row
  `r - 5000 t` of block `t = r / 5000`: every block written back is that array read through the block, the
  blocks cover the array, so the region's output array is `max (g + b) 0` entry by entry.  Stated for any
  buffer contents `V` at the region's entry and for ANY aggregate `g` and bias `b` that `V` holds there (the
  statement is about the region alone; what the aggregate is does not enter).
-/
import proofs.«117743_j53549652246670_1_alg».proof.Proof.Gen.KernelIdeal.Frame
import proofs.«117743_j53549652246670_1_alg».proof.Proof.RefReadP
import Idealize.ShloMosaic.Lib.Pipeline.Value
import Idealize.ShloMosaic.Lib.ValueIdx

set_option maxRecDepth 16384

noncomputable section

namespace Cert.KernelIdeal.Act1

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block offsets of the three windows, decided once over the grid: the row-block index of the tiled input and
    of the output is the point's number, the operand kept whole sits at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An index of the output array lies in point `t`'s block iff each coordinate lies in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The ten row blocks of 5000 cover the 50000 rows: row `r` lies in the block of point `r / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  refine ⟨⟨(i 0).val / 5000, ht⟩, flush1_2 _, ?_⟩
  rw [mem_blk]
  obtain ⟨-, -, -, -, e4, e5⟩ := idx_facts (⟨(i 0).val / 5000, ht⟩ : Fin cfg1.N)
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The bias row's index under an index of a block: row 0, the same column. -/
abbrev biasIx (j : S5000x64.Idx) : S1x64.Idx := fun a => match a with
  | ⟨0, _⟩ => ⟨0, Nat.one_pos⟩
  | ⟨1, _⟩ => ⟨(j 1).val, (j 1).isLt⟩

/-- The body's value at an index of the block: the block's entry plus the bias of its column, cut off below at zero. -/
theorem pay_apply (x0 : Vec Ideal S5000x64 .f32) (x1 : Vec Ideal S1x64 .f32) (j : S5000x64.Idx) :
    k1_pay1 (F := Ideal) x0 x1 j = max (x0 j + x1 (biasIx j)) (FloatOps.ofBits (F := Ideal) .f32 0x00000000#32) := by
  unfold k1_pay1
  try dsimp only
  rw [shapeCast_self, shapeCast_self]
  show max (x0 j + broadcastTo S5000x64 x1 broadcasts_S1x64_S5000x64 j) _ = _
  rw [broadcastTo_apply x1 broadcasts_S1x64_S5000x64 j (biasIx j) (fun a => match a with
    | ⟨0, _⟩ => by show 0 = if (1 : Nat) = 1 then 0 else _; rw [if_pos rfl]
    | ⟨1, _⟩ => by show (j 1).val = if (64 : Nat) = 1 then 0 else _; rw [if_neg (by decide)]; rfl)]
  rfl

/-- The activation of an aggregate `g` and a bias `b`, entry by entry, in the reference's spelling. -/
abbrev act (g : (⟨S50000x64, .f32⟩ : BufTy).Contents (Elt Ideal)) (b : (⟨S64, .f32⟩ : BufTy).Contents (Elt Ideal)) : (⟨S50000x64, .f32⟩ : BufTy).Contents (Elt Ideal) :=
  fun i => FloatOps.maximumf (FloatOps.addf (g i) (b (Cert.ReferenceIdeal.ReadP.idx_main_v44 (Cert.ReferenceIdeal.ReadP.idx_main_v45 i))))
    (FloatOps.ofBits (F := Ideal) .f32 0x00000000#32)

/-- What point `t` writes back is the activation read through the point's block. -/
theorem flushed_eq (c : Dev nD) (g : (⟨S50000x64, .f32⟩ : BufTy).Contents (Elt Ideal)) (b : (⟨S64, .f32⟩ : BufTy).Contents (Elt Ideal)) (hagg : V c main_v43 = g)
    (hbias : ∀ y : S1x64.Idx, V c main_v44 y = b (Cert.ReferenceIdeal.ReadP.idx_main_v44 y)) (t : Fin cfg1.N) :
    (dat1 V c).flushed 2 t = ((cfg1.win 2).blk t).view.read (Elt Ideal) (act g b) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨f0, f1, f2, f3, f4, f5⟩ := idx_facts t
  funext j
  show k1_pay1 (iblk1 V c 0 t) (iblk1 V c 1 t) j
    = FloatOps.maximumf (FloatOps.addf (g (((cfg1.win 2).blk t).view.emb j))
        (b (Cert.ReferenceIdeal.ReadP.idx_main_v44 (Cert.ReferenceIdeal.ReadP.idx_main_v45 (((cfg1.win 2).blk t).view.emb j)))))
      (FloatOps.ofBits (F := Ideal) .f32 0x00000000#32)
  rw [pay_apply]
  have e0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have e1 : ((cfg1.win 1).blk t).view.emb (biasIx j) = Cert.ReferenceIdeal.ReadP.idx_main_v45 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  have hA : iblk1 V c 0 t j = g (((cfg1.win 2).blk t).view.emb j) :=
    (congrArg (V c main_v43) e0).trans (congrFun hagg _)
  have hB : iblk1 V c 1 t (biasIx j) = b (Cert.ReferenceIdeal.ReadP.idx_main_v44 (Cert.ReferenceIdeal.ReadP.idx_main_v45 (((cfg1.win 2).blk t).view.emb j))) :=
    (congrArg (V c main_v44) e1).trans (hbias _)
  simp only [Ideal.maximumf_def, Ideal.addf_def]
  exact congrArg₂ max (congrArg₂ (· + ·) hA hB) rfl

/-- The region's output array after its ten points is the activation of what it was given. -/
theorem array (c : Dev nD) (g : (⟨S50000x64, .f32⟩ : BufTy).Contents (Elt Ideal)) (b : (⟨S64, .f32⟩ : BufTy).Contents (Elt Ideal)) (hagg : V c main_v43 = g)
    (hbias : ∀ y : S1x64.Idx, V c main_v44 y = b (Cert.ReferenceIdeal.ReadP.idx_main_v44 y)) :
    (dat1 V c).arrAt 2 cfg1.N = act g b :=
  (dat1 V c).arrAt_eq_of_cover 2 _ (fun t _ => flushed_eq V c g b hagg hbias t) cover

end Cert.KernelIdeal.Act1

end
-- ==== Proof.Dense2.lean ====
/-
  The second layer's linear map: the first layer's activations times the second weight matrix, [50000, 64] by [64, 64].
  The kernel region tiles the rows in ten blocks of 5000 and keeps the weight matrix whole; point `t` multiplies
  rows 5000 t … 5000 t + 4999 by the weights into a zero accumulator (the casts to the narrower float format
  are the identity on the extended reals) and writes the product back as the same rows of the output.  The
  reference multiplies the whole [50000, 64] array by the weights at once.  Entry (r, q) of either is the sum
  over k of `h (r, k) * W (k, q)`, and row r of the whole array is row `r - 5000 t` of block `t = r / 5000`; so
  every block written back is the reference's product read through the block, the blocks cover the array, and
  the region's output array IS the reference's product.  Stated for any buffer contents `V` at the region's
  entry, for ANY activations `h` and weights `w` that `V` holds in the two operand arrays (the
  statement is about the region alone; what the activations are does not enter).
-/
import proofs.«117743_j53549652246670_1_alg».proof.Proof.Gen.KernelIdeal.Frame
import proofs.«117743_j53549652246670_1_alg».proof.Proof.RefReadP
import proofs.«117743_j53549652246670_1_alg».proof.Proof.BlockDot
import Idealize.ShloMosaic.Lib.Pipeline.Value
import Idealize.ShloMosaic.Lib.ValueIdx

set_option maxRecDepth 16384

noncomputable section

namespace Cert.KernelIdeal.Dense2

open Idealize.ShloMosaic Idealize.ShloMosaic.TcCoe Idealize.SL.Sem
open Idealize.ShloMosaic.Pipeline (Dat)
open Cert.KernelIdeal Cert.KernelIdeal.Gen Cert.KernelIdeal.BlockDot

variable (V : (c : Dev nD) → (b : Ref sig .tc) → Buf (Elt Ideal) ((c : Thread nD τ).loc b))

theorem hz : (![0, 0] : Fin 2 → Nat) = fun _ => 0 := funext fun a => by fin_cases a <;> rfl

/-- The block offsets of the three windows, decided once over the grid: the row-block index of the tiled input and
    of the output is the point's number, the operand kept whole sits at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the output array lies in point `t`'s block iff each coordinate lies in the block's range. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten row blocks of 5000 cover the 50000 rows: row `r` lies in the block of point `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  refine ⟨⟨(i 0).val / 5000, ht⟩, flush2_2 _, ?_⟩
  rw [mem_blk]
  obtain ⟨-, -, -, -, e4, e5⟩ := idx_facts (⟨(i 0).val / 5000, ht⟩ : Fin cfg2.N)
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The product of activations `h` [50000, 64] and weights `w` [64, 64], entry by entry: the sum over the contracted axis, with the
    operand indices spelled as the reference's stage spells them. -/
abbrev prod (h : (⟨S50000x64, .f32⟩ : BufTy).Contents (Elt Ideal)) (w : (⟨S64x64, .f32⟩ : BufTy).Contents (Elt Ideal)) : (⟨S50000x64, .f32⟩ : BufTy).Contents (Elt Ideal) :=
  fun i => ∑ k : Fin 64, h (Cert.ReferenceIdeal.ReadP.lidx_main_v48 i k) * w (Cert.ReferenceIdeal.ReadP.ridx_main_v48 i k)

/-- What point `t` writes back is the product read through the point's block. -/
theorem flushed_eq (c : Dev nD) (h : (⟨S50000x64, .f32⟩ : BufTy).Contents (Elt Ideal)) (w : (⟨S64x64, .f32⟩ : BufTy).Contents (Elt Ideal)) (h45 : V c main_v45 = h) (h5 : V c main_arg5 = w) (t : Fin cfg2.N) :
    (dat2 V c).flushed 2 t = ((cfg2.win 2).blk t).view.read (Elt Ideal) (prod h w) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨f0, f1, f2, f3, f4, f5⟩ := idx_facts t
  funext j
  show k2_pay1 (iblk2 V c 0 t) (iblk2 V c 1 t) j
    = ∑ k : Fin 64, h (Cert.ReferenceIdeal.ReadP.lidx_main_v48 (((cfg2.win 2).blk t).view.emb j) k) * w (Cert.ReferenceIdeal.ReadP.ridx_main_v48 (((cfg2.win 2).blk t).view.emb j) k)
  unfold k2_pay1
  dsimp only
  rw [shapeCast_self]
  refine (matmul_5000_64_64 _ _ j).trans ?_
  refine Finset.sum_congr rfl fun k _ => ?_
  have e0 : ((cfg2.win 0).blk t).view.emb (lix_5000_64_64 j k) = Cert.ReferenceIdeal.ReadP.lidx_main_v48 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have e1 : ((cfg2.win 1).blk t).view.emb (rix_5000_64_64 j k) = Cert.ReferenceIdeal.ReadP.ridx_main_v48 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  refine congrArg₂ (· * ·) ?_ ?_
  · show V c main_v45 (((cfg2.win 0).blk t).view.emb (lix_5000_64_64 j k)) = _
    exact (congrArg (V c main_v45) e0).trans (congrFun h45 _)
  · show V c main_arg5 (((cfg2.win 1).blk t).view.emb (rix_5000_64_64 j k)) = _
    exact (congrArg (V c main_arg5) e1).trans (congrFun h5 _)

/-- The region's output array after its ten points is the reference's product. -/
theorem array (c : Dev nD) (h : (⟨S50000x64, .f32⟩ : BufTy).Contents (Elt Ideal)) (w : (⟨S64x64, .f32⟩ : BufTy).Contents (Elt Ideal)) (h45 : V c main_v45 = h) (h5 : V c main_arg5 = w) :
    (dat2 V c).arrAt 2 cfg2.N = prod h w :=
  (dat2 V c).arrAt_eq_of_cover 2 _ (fun t _ => flushed_eq V c h w h45 h5 t) cover

end Cert.KernelIdeal.Dense2

end
-- ==== Proof.Act2.lean ====
/-
  The second layer's activation: an aggregate plus the second bias, rectified.
  The kernel region tiles the 50000 rows in ten blocks of 5000 and keeps the bias, laid out as one row
  [1, 64], whole; point `t` adds the bias row to every row of its block and takes the maximum with zero.  The
  reference broadcasts the bias [64] to [1, 64] and then over all 50000 rows, adds, and takes the maximum with
  a zero splat.  Entry (r, q) of either is `max (g (r, q) + b q) 0`, and row r of the whole array is row
  `r - 5000 t` of block `t = r / 5000`: every block written back is that array read through the block, the
  blocks cover the array, so the region's output array is `max (g + b) 0` entry by entry.  Stated for any
  buffer contents `V` at the region's entry and for ANY aggregate `g` and bias `b` that `V` holds there (the
  statement is about the region alone; what the aggregate is does not enter).
-/
import proofs.«117743_j53549652246670_1_alg».proof.Proof.Gen.KernelIdeal.Frame
import proofs.«117743_j53549652246670_1_alg».proof.Proof.RefReadP
import Idealize.ShloMosaic.Lib.Pipeline.Value
import Idealize.ShloMosaic.Lib.ValueIdx

set_option maxRecDepth 16384

noncomputable section

namespace Cert.KernelIdeal.Act2

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block offsets of the three windows, decided once over the grid: the row-block index of the tiled input and
    of the output is the point's number, the operand kept whole sits at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the output array lies in point `t`'s block iff each coordinate lies in the block's range. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten row blocks of 5000 cover the 50000 rows: row `r` lies in the block of point `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have ht : (i 0).val / 5000 < cfg3.N := by rw [hN]; omega
  refine ⟨⟨(i 0).val / 5000, ht⟩, flush3_2 _, ?_⟩
  rw [mem_blk]
  obtain ⟨-, -, -, -, e4, e5⟩ := idx_facts (⟨(i 0).val / 5000, ht⟩ : Fin cfg3.N)
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- The bias row's index under an index of a block: row 0, the same column. -/
abbrev biasIx (j : S5000x64.Idx) : S1x64.Idx := fun a => match a with
  | ⟨0, _⟩ => ⟨0, Nat.one_pos⟩
  | ⟨1, _⟩ => ⟨(j 1).val, (j 1).isLt⟩

/-- The body's value at an index of the block: the block's entry plus the bias of its column, cut off below at zero. -/
theorem pay_apply (x0 : Vec Ideal S5000x64 .f32) (x1 : Vec Ideal S1x64 .f32) (j : S5000x64.Idx) :
    k3_pay1 (F := Ideal) x0 x1 j = max (x0 j + x1 (biasIx j)) (FloatOps.ofBits (F := Ideal) .f32 0x00000000#32) := by
  unfold k3_pay1
  try dsimp only
  rw [shapeCast_self, shapeCast_self]
  show max (x0 j + broadcastTo S5000x64 x1 broadcasts_S1x64_S5000x64 j) _ = _
  rw [broadcastTo_apply x1 broadcasts_S1x64_S5000x64 j (biasIx j) (fun a => match a with
    | ⟨0, _⟩ => by show 0 = if (1 : Nat) = 1 then 0 else _; rw [if_pos rfl]
    | ⟨1, _⟩ => by show (j 1).val = if (64 : Nat) = 1 then 0 else _; rw [if_neg (by decide)]; rfl)]
  rfl

/-- The activation of an aggregate `g` and a bias `b`, entry by entry, in the reference's spelling. -/
abbrev act (g : (⟨S50000x64, .f32⟩ : BufTy).Contents (Elt Ideal)) (b : (⟨S64, .f32⟩ : BufTy).Contents (Elt Ideal)) : (⟨S50000x64, .f32⟩ : BufTy).Contents (Elt Ideal) :=
  fun i => FloatOps.maximumf (FloatOps.addf (g i) (b (Cert.ReferenceIdeal.ReadP.idx_main_v62 (Cert.ReferenceIdeal.ReadP.idx_main_v63 i))))
    (FloatOps.ofBits (F := Ideal) .f32 0x00000000#32)

/-- What point `t` writes back is the activation read through the point's block. -/
theorem flushed_eq (c : Dev nD) (g : (⟨S50000x64, .f32⟩ : BufTy).Contents (Elt Ideal)) (b : (⟨S64, .f32⟩ : BufTy).Contents (Elt Ideal)) (hagg : V c main_v59 = g)
    (hbias : ∀ y : S1x64.Idx, V c main_v60 y = b (Cert.ReferenceIdeal.ReadP.idx_main_v62 y)) (t : Fin cfg3.N) :
    (dat3 V c).flushed 2 t = ((cfg3.win 2).blk t).view.read (Elt Ideal) (act g b) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨f0, f1, f2, f3, f4, f5⟩ := idx_facts t
  funext j
  show k3_pay1 (iblk3 V c 0 t) (iblk3 V c 1 t) j
    = FloatOps.maximumf (FloatOps.addf (g (((cfg3.win 2).blk t).view.emb j))
        (b (Cert.ReferenceIdeal.ReadP.idx_main_v62 (Cert.ReferenceIdeal.ReadP.idx_main_v63 (((cfg3.win 2).blk t).view.emb j)))))
      (FloatOps.ofBits (F := Ideal) .f32 0x00000000#32)
  rw [pay_apply]
  have e0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have e1 : ((cfg3.win 1).blk t).view.emb (biasIx j) = Cert.ReferenceIdeal.ReadP.idx_main_v63 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have hA : iblk3 V c 0 t j = g (((cfg3.win 2).blk t).view.emb j) :=
    (congrArg (V c main_v59) e0).trans (congrFun hagg _)
  have hB : iblk3 V c 1 t (biasIx j) = b (Cert.ReferenceIdeal.ReadP.idx_main_v62 (Cert.ReferenceIdeal.ReadP.idx_main_v63 (((cfg3.win 2).blk t).view.emb j))) :=
    (congrArg (V c main_v60) e1).trans (hbias _)
  simp only [Ideal.maximumf_def, Ideal.addf_def]
  exact congrArg₂ max (congrArg₂ (· + ·) hA hB) rfl

/-- The region's output array after its ten points is the activation of what it was given. -/
theorem array (c : Dev nD) (g : (⟨S50000x64, .f32⟩ : BufTy).Contents (Elt Ideal)) (b : (⟨S64, .f32⟩ : BufTy).Contents (Elt Ideal)) (hagg : V c main_v59 = g)
    (hbias : ∀ y : S1x64.Idx, V c main_v60 y = b (Cert.ReferenceIdeal.ReadP.idx_main_v62 y)) :
    (dat3 V c).arrAt 2 cfg3.N = act g b :=
  (dat3 V c).arrAt_eq_of_cover 2 _ (fun t _ => flushed_eq V c g b hagg hbias t) cover

end Cert.KernelIdeal.Act2

end
-- ==== Proof.Head.lean ====
/-
  The readout head: the pooled graph features [256, 64] through a hidden layer of 64 units and a single output.
  The kernel region has one grid point and every window whole: it multiplies the pooled features by the first
  head matrix into a zero accumulator, adds the first head bias laid out as a row [1, 64], takes the maximum with
  zero, multiplies by the second head matrix [64, 1] into a zero accumulator and adds the last bias laid out as
  [1, 1] (the casts to the narrower float format are the identity on the extended reals).  The reference does
  the same with two `dot_general`s, the biases broadcast from [64] and from [1], and a zero splat.  Entry g of
  either is  `Σ_k max (Σ_k' p (g, k') * A (k', k) + b k) 0 * B (k, 0) + d`.  The one block written back is the
  whole output array, so the region's output array IS the reference's [256, 1] stage.  Stated for any buffer
  contents `V` at the region's entry, given what `V` holds in the five operand arrays.
-/
import proofs.«117743_j53549652246670_1_alg».proof.Proof.Gen.KernelIdeal.Frame
import proofs.«117743_j53549652246670_1_alg».proof.Proof.RefReadP
import proofs.«117743_j53549652246670_1_alg».proof.Proof.BlockDot
import Idealize.ShloMosaic.Lib.Pipeline.Value
import Idealize.ShloMosaic.Lib.ValueIdx

set_option maxRecDepth 16384

noncomputable section

namespace Cert.KernelIdeal.Head

open Idealize.ShloMosaic Idealize.ShloMosaic.TcCoe Idealize.SL.Sem
open Idealize.ShloMosaic.Pipeline (Dat)
open Cert.KernelIdeal Cert.KernelIdeal.Gen Cert.KernelIdeal.BlockDot

variable (V : (c : Dev nD) → (b : Ref sig .tc) → Buf (Elt Ideal) ((c : Thread nD τ).loc b))

theorem hz : (![0, 0] : Fin 2 → Nat) = fun _ => 0 := funext fun a => by fin_cases a <;> rfl

/-- Every window of the one-point grid sits at block (0, 0). -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The hidden bias row's index under an index of the hidden layer: row 0, the same column. -/
abbrev hbIx (y : S256x64.Idx) : S1x64.Idx := fun a => match a with
  | ⟨0, _⟩ => ⟨0, Nat.one_pos⟩
  | ⟨1, _⟩ => ⟨(y 1).val, (y 1).isLt⟩
/-- The last bias's one index. -/
abbrev obIx (j : S256x1.Idx) : S1x1.Idx := fun a => match a with
  | ⟨0, _⟩ => ⟨0, Nat.one_pos⟩
  | ⟨1, _⟩ => ⟨0, Nat.one_pos⟩

/-- The body's value at an index: the hidden layer rectified, times the output column, plus the last bias. -/
theorem pay_apply (x0 : Vec Ideal S256x64 .f32) (x3 : Vec Ideal S64x64 .f32) (x6 : Vec Ideal S1x64 .f32) (x13 : Vec Ideal S64x1 .f32)
    (x16 : Vec Ideal S1x1 .f32) (j : S256x1.Idx) :
    k4_pay1 (F := Ideal) x0 x3 x6 x13 x16 j
      = (∑ k : Fin 64, max ((∑ k' : Fin 64, x0 (lix_256_64_64 (lix_256_64_1 j k) k') * x3 (rix_256_64_64 (lix_256_64_1 j k) k'))
            + x6 (hbIx (lix_256_64_1 j k))) (FloatOps.ofBits (F := Ideal) .f32 0x00000000#32) * x13 (rix_256_64_1 j k))
        + x16 (obIx j) := by
  unfold k4_pay1
  try dsimp only
  rw [shapeCast_self, shapeCast_self, shapeCast_self]
  refine congrArg₂ (· + ·) ((matmul_256_64_1 _ _ j).trans (Finset.sum_congr rfl fun k _ => congrArg (· * _) ?_)) ?_
  · refine congrArg₂ max (congrArg₂ (· + ·) (matmul_256_64_64 _ _ (lix_256_64_1 j k)) ?_) rfl
    exact broadcastTo_apply x6 broadcasts_S1x64_S256x64 (lix_256_64_1 j k) (hbIx (lix_256_64_1 j k)) (fun a => match a with
      | ⟨0, _⟩ => by show 0 = if (1 : Nat) = 1 then 0 else _; rw [if_pos rfl]
      | ⟨1, _⟩ => by show k.val = if (64 : Nat) = 1 then 0 else _; rw [if_neg (by decide)]; rfl)
  · exact broadcastTo_apply x16 broadcasts_S1x1_S256x1 j (obIx j) (fun a => match a with
      | ⟨0, _⟩ => by show 0 = if (1 : Nat) = 1 then 0 else _; rw [if_pos rfl]
      | ⟨1, _⟩ => by show 0 = if (1 : Nat) = 1 then 0 else _; rw [if_pos rfl])

/-- What the one point writes back is the reference's [256, 1] stage read through the (whole) block. -/
theorem flushed_eq (c : Dev nD) (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x1, .f32⟩ : BufTy).Contents (Elt Ideal)) (a10 : (⟨S1, .f32⟩ : BufTy).Contents (Elt Ideal))
    (hp : V c main_v73 = Cert.ReferenceIdeal.ReadP.val_main_v77 (F := Ideal) a0 a1 a2 a3 a4 a5 a6) (h7 : V c main_arg7 = a7)
    (h8 : ∀ y : S1x64.Idx, V c main_v74 y = a8 (Cert.ReferenceIdeal.ReadP.idx_main_v79 y)) (h9 : V c main_arg9 = a9)
    (h10 : ∀ y : S1x1.Idx, V c main_v75 y = a10 (Cert.ReferenceIdeal.ReadP.idx_main_v84 y)) (t : Fin cfg4.N) :
    (dat4 V c).flushed 5 t = ((cfg4.win 5).blk t).view.read (Elt Ideal) (Cert.ReferenceIdeal.ReadP.val_main_v86 (F := Ideal) a0 a1 a2 a3 a4 a5 a6 a7 a8 a9 a10) := by
  show (cfg4.win 5).cut (grid4.coords t) ((dat4 V c).after 5 t) = _
  rw [after4_5]
  unfold out4_5
  rw [View.canon_unit_zero hz]
  simp only [View.ld_unit_zero (S := S256x64) hz, View.ld_unit_zero (S := S64x64) hz, View.ld_unit_zero (S := S1x64) hz,
    View.ld_unit_zero (S := S64x1) hz, View.ld_unit_zero (S := S1x1) hz]
  obtain ⟨f00, f01, f10, f11, f20, f21, f30, f31, f40, f41, f50, f51⟩ := idx_facts t
  funext j
  show k4_pay1 (iblk4 V c 0 t) (iblk4 V c 1 t) (iblk4 V c 2 t) (iblk4 V c 3 t) (iblk4 V c 4 t) j
    = Cert.ReferenceIdeal.ReadP.val_main_v86 (F := Ideal) a0 a1 a2 a3 a4 a5 a6 a7 a8 a9 a10 (((cfg4.win 5).blk t).view.emb j)
  rw [pay_apply, Cert.ReferenceIdeal.ReadP.val_main_v86_apply, Cert.ReferenceIdeal.ReadP.val_main_v83_apply, Cert.ReferenceIdeal.ReadP.val_main_v85_apply, Cert.ReferenceIdeal.ReadP.val_main_v84_apply]
  refine congrArg₂ (· + ·) (Finset.sum_congr rfl fun k _ => ?_) ?_
  · rw [Cert.ReferenceIdeal.ReadP.val_main_v82_apply, Cert.ReferenceIdeal.ReadP.val_main_v81_apply, Cert.ReferenceIdeal.ReadP.val_main_v78_apply, Cert.ReferenceIdeal.ReadP.val_main_v80_apply, Cert.ReferenceIdeal.ReadP.val_main_v79_apply,
      Cert.ReferenceIdeal.ReadP.val_main_call3_v0_apply, Cert.ReferenceIdeal.ReadP.val_main_call3_cst_apply]
    have ey : ((cfg4.win 0).blk t).view.emb (lix_256_64_1 j k) = Cert.ReferenceIdeal.ReadP.lidx_main_v83 (((cfg4.win 5).blk t).view.emb j) k := by
      funext a; apply Fin.ext
      match a with
      | ⟨0, _⟩ => show win4_0.index t (0 : Fin 2) * 256 + 1 * (j 0).val = win4_5.index t (0 : Fin 2) * 256 + 1 * (j 0).val; omega
      | ⟨1, _⟩ => show win4_0.index t (1 : Fin 2) * 64 + 1 * k.val = k.val; omega
    refine congrArg₂ (· * ·) (congrArg₂ max (congrArg₂ (· + ·) (Finset.sum_congr rfl fun k' _ => ?_) ?_) rfl) ?_
    · have e0 : ((cfg4.win 0).blk t).view.emb (lix_256_64_64 (lix_256_64_1 j k) k')
          = Cert.ReferenceIdeal.ReadP.lidx_main_v78 (Cert.ReferenceIdeal.ReadP.lidx_main_v83 (((cfg4.win 5).blk t).view.emb j) k) k' := by
        funext a; apply Fin.ext
        match a with
        | ⟨0, _⟩ => show win4_0.index t (0 : Fin 2) * 256 + 1 * (j 0).val = win4_5.index t (0 : Fin 2) * 256 + 1 * (j 0).val; omega
        | ⟨1, _⟩ => show win4_0.index t (1 : Fin 2) * 64 + 1 * k'.val = k'.val; omega
      have e1 : ((cfg4.win 1).blk t).view.emb (rix_256_64_64 (lix_256_64_1 j k) k')
          = Cert.ReferenceIdeal.ReadP.ridx_main_v78 (Cert.ReferenceIdeal.ReadP.lidx_main_v83 (((cfg4.win 5).blk t).view.emb j) k) k' := by
        funext a; apply Fin.ext
        match a with
        | ⟨0, _⟩ => show win4_1.index t (0 : Fin 2) * 64 + 1 * k'.val = k'.val; omega
        | ⟨1, _⟩ => show win4_1.index t (1 : Fin 2) * 64 + 1 * k.val = k.val; omega
      refine congrArg₂ (· * ·) ?_ ?_
      · show V c main_v73 (((cfg4.win 0).blk t).view.emb (lix_256_64_64 (lix_256_64_1 j k) k')) = _
        rw [hp, e0]
      · show V c main_arg7 (((cfg4.win 1).blk t).view.emb (rix_256_64_64 (lix_256_64_1 j k) k')) = _
        rw [h7, e1]
    · have e2 : ((cfg4.win 2).blk t).view.emb (hbIx (lix_256_64_1 j k))
          = Cert.ReferenceIdeal.ReadP.idx_main_v80 (Cert.ReferenceIdeal.ReadP.lidx_main_v83 (((cfg4.win 5).blk t).view.emb j) k) := by
        funext a; apply Fin.ext
        match a with
        | ⟨0, _⟩ => show win4_2.index t (0 : Fin 2) * 1 + 1 * 0 = 0; omega
        | ⟨1, _⟩ => show win4_2.index t (1 : Fin 2) * 64 + 1 * k.val = k.val; omega
      show V c main_v74 (((cfg4.win 2).blk t).view.emb (hbIx (lix_256_64_1 j k))) = _
      rw [h8, e2]
    · have e3 : ((cfg4.win 3).blk t).view.emb (rix_256_64_1 j k) = Cert.ReferenceIdeal.ReadP.ridx_main_v83 (((cfg4.win 5).blk t).view.emb j) k := by
        funext a; apply Fin.ext
        match a with
        | ⟨0, _⟩ => show win4_3.index t (0 : Fin 2) * 64 + 1 * k.val = k.val; omega
        | ⟨1, _⟩ => show win4_3.index t (1 : Fin 2) * 1 + 1 * (j 1).val = win4_5.index t (1 : Fin 2) * 1 + 1 * (j 1).val; omega
      show V c main_arg9 (((cfg4.win 3).blk t).view.emb (rix_256_64_1 j k)) = _
      rw [h9, e3]
  · have e4 : ((cfg4.win 4).blk t).view.emb (obIx j) = Cert.ReferenceIdeal.ReadP.idx_main_v85 (((cfg4.win 5).blk t).view.emb j) := by
      funext a; apply Fin.ext
      match a with
      | ⟨0, _⟩ => show win4_4.index t (0 : Fin 2) * 1 + 1 * 0 = 0; omega
      | ⟨1, _⟩ => show win4_4.index t (1 : Fin 2) * 1 + 1 * 0 = 0; omega
    show V c main_v75 (((cfg4.win 4).blk t).view.emb (obIx j)) = _
    rw [h10, e4]

/-- An index of the output array lies in the one block. -/
theorem cover (i : S256x1.Idx) : ∃ t : Fin cfg4.N, (cfg4.win 5).flush t = true ∧ i ∈ ((cfg4.win 5).blk t).view.set := by
  have hi0 : (i 0).val < 256 := (i 0).isLt
  have hi1 : (i 1).val < 1 := (i 1).isLt
  have hN : cfg4.N = 1 := N_4
  have ht : 0 < cfg4.N := by rw [hN]; omega
  refine ⟨⟨0, ht⟩, flush4_5 _, ?_⟩
  obtain ⟨-, -, -, -, -, -, -, -, -, -, f50, f51⟩ := idx_facts (⟨0, ht⟩ : Fin cfg4.N)
  show i ∈ ((View.whole main_v76).slice (win4_5.rect ⟨0, ht⟩)).set
  rw [View.set_slice_whole, Rect.mem_set_unit]
  intro a
  match a with
  | ⟨0, _⟩ =>
    show win4_5.index ⟨0, ht⟩ (0 : Fin 2) * 256 ≤ (i 0).val ∧ (i 0).val < win4_5.index ⟨0, ht⟩ (0 : Fin 2) * 256 + 256
    rw [f50]; omega
  | ⟨1, _⟩ =>
    show win4_5.index ⟨0, ht⟩ (1 : Fin 2) * 1 ≤ (i 1).val ∧ (i 1).val < win4_5.index ⟨0, ht⟩ (1 : Fin 2) * 1 + 1
    rw [f51]; omega

/-- The region's output array after its one point is the reference's [256, 1] stage. -/
theorem array (c : Dev nD) (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S128x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x1, .f32⟩ : BufTy).Contents (Elt Ideal)) (a10 : (⟨S1, .f32⟩ : BufTy).Contents (Elt Ideal))
    (hp : V c main_v73 = Cert.ReferenceIdeal.ReadP.val_main_v77 (F := Ideal) a0 a1 a2 a3 a4 a5 a6) (h7 : V c main_arg7 = a7)
    (h8 : ∀ y : S1x64.Idx, V c main_v74 y = a8 (Cert.ReferenceIdeal.ReadP.idx_main_v79 y)) (h9 : V c main_arg9 = a9)
    (h10 : ∀ y : S1x1.Idx, V c main_v75 y = a10 (Cert.ReferenceIdeal.ReadP.idx_main_v84 y)) :
    (dat4 V c).arrAt 5 cfg4.N = Cert.ReferenceIdeal.ReadP.val_main_v86 (F := Ideal) a0 a1 a2 a3 a4 a5 a6 a7 a8 a9 a10 :=
  (dat4 V c).arrAt_eq_of_cover 5 _ (fun t _ => flushed_eq V c a0 a1 a2 a3 a4 a5 a6 a7 a8 a9 a10 hp h7 h8 h9 h10 t) cover

end Cert.KernelIdeal.Head

end
-- ==== Proof.Chain.lean ====
/-
  The kernel program's result as a function of its arguments.  Walking the buffer contents back from the last
  boundary: the result is the reshape of the head region's output; that region's operands are the pooled
  features (the pooling stretch applied to the second layer's activations and the graph assignment), the head's
  matrices, and its two biases laid out as a row and as a single entry; the second layer's activations are the
  fourth region's output on the aggregate of the third region's product, the aggregate taken by the same
  gather, scale and scatter-add over the edge list as in the first layer; and so on down to the node features.
  At every step the value is named by the reference program's own stage of the same number of operations: a
  host stretch of the kernel program is, operation for operation, a stretch of the reference (`rfl` once the
  operands are named), and each kernel region is the reference's dense or activation stage (the region
  modules).  The edge endpoints and edge weights are computed once, before the first region, and read again by
  both layers; the arguments are read where they are first needed, unchanged since the launch.
-/
import proofs.«117743_j53549652246670_1_alg».proof.Proof.Keep
import proofs.«117743_j53549652246670_1_alg».proof.Proof.Dense1
import proofs.«117743_j53549652246670_1_alg».proof.Proof.Act1
import proofs.«117743_j53549652246670_1_alg».proof.Proof.Dense2
import proofs.«117743_j53549652246670_1_alg».proof.Proof.Act2
import proofs.«117743_j53549652246670_1_alg».proof.Proof.Head
import proofs.«117743_j53549652246670_1_alg».proof.Proof.RefReadP
import Idealize.ShloMosaic.Lib.StableHlo.Run
import Idealize.ShloMosaic.Lib.Pipeline.Value

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first region: the edge endpoints and the edge weights -/

/-- The source endpoint of every edge, self loops appended. -/
theorem src_at3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl
/-- The destination endpoint of every edge, self loops appended. -/
theorem dst_at3 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl
/-! The edge weights are computed in three stretches: the in-degree of every node (a scatter-add of ones along the
    destinations) with its positivity mask and its inverse square root; the `where` that keeps the inverse square root
    where the degree is positive and zero elsewhere; and the product of that quantity gathered at both endpoints.
    Each stretch is read separately, from what the one before it left. -/

set_option maxHeartbeats 20000000 in
/-- Where the in-degree is positive. -/
theorem mask_at1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl

set_option maxHeartbeats 20000000 in
/-- The inverse square root of the in-degree. -/
theorem rsq_at1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp
  rfl

set_option maxHeartbeats 20000000 in
/-- The zero the `where` falls back to. -/
theorem zero_at1 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

set_option maxHeartbeats 20000000 in
/-- The sources after the first stretch. -/
theorem src_at1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

set_option maxHeartbeats 20000000 in
/-- The destinations after the first stretch. -/
theorem dst_at1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp
  rfl

set_option maxHeartbeats 20000000 in
/-- The `where` stretch from ANY buffer contents: given the mask, the candidate and the fallback scalar it reads, it
    leaves the selection between the candidate and the broadcast fallback.  (Its three operations are a called
    function's, written over typed references; with the operands variables, reading through them is immediate.) -/
theorem where_of (X : Valuation τ sig (Elt Ideal)) (p : (⟨S50000, .i1⟩ : BufTy).Contents (Elt Ideal)) (q : (⟨S50000, .f32⟩ : BufTy).Contents (Elt Ideal))
    (z : (⟨S_, .f32⟩ : BufTy).Contents (Elt Ideal)) (h12 : X (Proc.devRef .tc main_v12) = p) (h13 : X (Proc.devRef .tc main_v13) = q)
    (hz : X (Proc.devRef .tc main_cst_2) = z) :
    StableHlo.after hostOps0_1 X (Proc.devRef .tc main_v14) = select p q (broadcastInDim S50000 ![] bcast_S_S50000 (id z)) := by
  after_results_simp
  first | rw [h12, h13, hz] | simp only [h12, h13, hz]
  rfl

/-- The per-node factor: the inverse square root of the in-degree where it is positive, zero elsewhere. -/
theorem dis_at2 : W2 m ρ c (Proc.devRef .tc main_v14) = Cert.ReferenceIdeal.ReadP.val_main_v14 (F := Ideal) (m ((c : Thread nD τ).loc main_arg1)) :=
  (where_of (W1 m ρ c) _ _ _ (mask_at1 m ρ c) (rsq_at1 m ρ c) (zero_at1 m ρ c)).trans
    (by rw [Cert.ReferenceIdeal.ReadP.val_main_v14, Cert.ReferenceIdeal.ReadP.val_main_call0_v1, Cert.ReferenceIdeal.ReadP.val_main_call0_v0])

set_option maxHeartbeats 20000000 in
/-- The symmetric normalisation weight of every edge: the per-node factor at its source times that at its destination. -/
theorem wgt_at3 : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  have h3 : W2 m ρ c (Proc.devRef .tc main_v3) = Cert.ReferenceIdeal.ReadP.val_main_v3 (F := Ideal) (m ((c : Thread nD τ).loc main_arg1)) :=
    (Keep.keep0_1 (W1 m ρ c) main_v3 (by decide)).trans (src_at1 m ρ c)
  have h6 : W2 m ρ c (Proc.devRef .tc main_v6) = Cert.ReferenceIdeal.ReadP.val_main_v6 (F := Ideal) (m ((c : Thread nD τ).loc main_arg1)) :=
    (Keep.keep0_1 (W1 m ρ c) main_v6 (by decide)).trans (dst_at1 m ρ c)
  have h14 := dis_at2 m ρ c
  generalize W2 m ρ c = X at h3 h6 h14 ⊢
  after_results_simp
  first | rw [h3, h6, h14] | simp only [h3, h6, h14]
  rfl

/-! ## The first layer -/

/-- The first region's output: the node features times the first weight matrix. -/
theorem lin1_at4 : W4 m ρ c (Proc.devRef .tc main_v30) = Cert.ReferenceIdeal.ReadP.val_main_v30 (F := Ideal) (m ((c : Thread nD τ).loc main_arg0)) (m ((c : Thread nD τ).loc main_arg3)) :=
  (W4_arr m ρ c 2).trans (Dense1.array (V3 m ρ) c _ _ (Keep.W3_of m ρ c main_arg0 (by decide) (by decide) (by decide)) (Keep.W3_of m ρ c main_arg3 (by decide) (by decide) (by decide)))

set_option maxHeartbeats 20000000 in
/-- The first layer's aggregate: gather along the sources, scale by the edge weights, add up per destination. -/
theorem agg1_at5 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  after_results_simp
  rw [lin1_at4, Keep.W4_of m ρ c main_v3 (by decide), Keep.W4_of m ρ c main_v6 (by decide), Keep.W4_of m ρ c main_v29 (by decide),
    src_at3, dst_at3, wgt_at3]
  rfl
/-- The first bias as a row. -/
theorem bias1_at5 (y : S1x64.Idx) : W5 m ρ c (Proc.devRef .tc main_v44) y = (m ((c : Thread nD τ).loc main_arg4)) (Cert.ReferenceIdeal.ReadP.idx_main_v44 y) := by
  show StableHlo.after hostOps1 (W4 m ρ c) (Proc.devRef .tc main_v44) y = _
  after_results
  rw [Keep.W4_of m ρ c main_arg4 (by decide), Keep.W3_of m ρ c main_arg4 (by decide) (by decide) (by decide)]
  have h0 : (y 0).val < 1 := (y 0).isLt
  exact shapeCast_apply _ _ y _ (by show (S64.rowMajor _).val = (S1x64.rowMajor y).val; rewrite [Shape.rowMajor_val_two, Shape.rowMajor_val_one]; show (y 1).val = (y 0).val * 64 + (y 1).val; omega)

/-- The second region's output: the first layer's activations. -/
theorem act1_at6 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) :=
  (W6_arr m ρ c 2).trans ((Act1.array (V5 m ρ) c _ _ (agg1_at5 m ρ c) (bias1_at5 m ρ c)).trans (funext fun i => by
    rw [Cert.ReferenceIdeal.ReadP.val_main_v47_apply, Cert.ReferenceIdeal.ReadP.val_main_v46_apply, Cert.ReferenceIdeal.ReadP.val_main_v45_apply, Cert.ReferenceIdeal.ReadP.val_main_v44_apply,
      Cert.ReferenceIdeal.ReadP.val_main_call1_v0_apply, Cert.ReferenceIdeal.ReadP.val_main_call1_cst_apply]))

/-! ## The second layer -/

/-- The third region's output: the first layer's activations times the second weight matrix. -/
theorem lin2_at7 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((Dense2.array (V6 m ρ) c _ _ (act1_at6 m ρ c)
    ((Keep.W6_of m ρ c main_arg5 (by decide) (by decide) (by decide)).trans (Keep.W3_of m ρ c main_arg5 (by decide) (by decide) (by decide)))).trans
    (funext fun i => (Cert.ReferenceIdeal.ReadP.val_main_v48_apply (m ((c : Thread nD τ).loc main_arg0)) (m ((c : Thread nD τ).loc main_arg1)) (m ((c : Thread nD τ).loc main_arg3)) (m ((c : Thread nD τ).loc main_arg4)) (m ((c : Thread nD τ).loc main_arg5)) i).symm))

set_option maxHeartbeats 20000000 in
/-- The second layer's aggregate. -/
theorem agg2_at8 : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W7 m ρ c) (Proc.devRef .tc main_v59) = _
  after_results_simp
  rw [lin2_at7, Keep.W7_of m ρ c main_v3 (by decide) (by decide) (by decide) (by decide),
    Keep.W7_of m ρ c main_v6 (by decide) (by decide) (by decide) (by decide),
    Keep.W7_of m ρ c main_v29 (by decide) (by decide) (by decide) (by decide), src_at3, dst_at3, wgt_at3]
  rfl
/-- The second bias as a row. -/
theorem bias2_at8 (y : S1x64.Idx) : W8 m ρ c (Proc.devRef .tc main_v60) y = (m ((c : Thread nD τ).loc main_arg6)) (Cert.ReferenceIdeal.ReadP.idx_main_v62 y) := by
  show StableHlo.after hostOps3 (W7 m ρ c) (Proc.devRef .tc main_v60) y = _
  after_results
  rw [Keep.W7_of m ρ c main_arg6 (by decide) (by decide) (by decide) (by decide), Keep.W3_of m ρ c main_arg6 (by decide) (by decide) (by decide)]
  have h0 : (y 0).val < 1 := (y 0).isLt
  exact shapeCast_apply _ _ y _ (by show (S64.rowMajor _).val = (S1x64.rowMajor y).val; rewrite [Shape.rowMajor_val_two, Shape.rowMajor_val_one]; show (y 1).val = (y 0).val * 64 + (y 1).val; omega)

/-- The fourth region's output: the second layer's activations. -/
theorem act2_at9 : W9 m ρ c (Proc.devRef .tc main_v61) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W9_arr m ρ c 2).trans ((Act2.array (V8 m ρ) c _ _ (agg2_at8 m ρ c) (bias2_at8 m ρ c)).trans (funext fun i => by
    rw [Cert.ReferenceIdeal.ReadP.val_main_v65_apply, Cert.ReferenceIdeal.ReadP.val_main_v64_apply, Cert.ReferenceIdeal.ReadP.val_main_v63_apply, Cert.ReferenceIdeal.ReadP.val_main_v62_apply,
      Cert.ReferenceIdeal.ReadP.val_main_call2_v0_apply, Cert.ReferenceIdeal.ReadP.val_main_call2_cst_apply]))

/-! ## Pooling and the head -/

set_option maxHeartbeats 20000000 in
/-- The mean of the second layer's activations over each graph's nodes (an empty graph's divisor is one). -/
theorem pool_at10 : W10 m ρ c (Proc.devRef .tc main_v73) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v73) = _
  after_results_simp
  rw [act2_at9, Keep.W9_of m ρ c main_arg2 (by decide) (by decide) (by decide) (by decide) (by decide) (by decide), Keep.W3_of m ρ c main_arg2 (by decide) (by decide) (by decide)]
  rfl
/-- The head's hidden bias as a row. -/
theorem hbias_at10 (y : S1x64.Idx) : W10 m ρ c (Proc.devRef .tc main_v74) y = (m ((c : Thread nD τ).loc main_arg8)) (Cert.ReferenceIdeal.ReadP.idx_main_v79 y) := by
  show StableHlo.after hostOps4 (W9 m ρ c) (Proc.devRef .tc main_v74) y = _
  after_results
  rw [Keep.W9_of m ρ c main_arg8 (by decide) (by decide) (by decide) (by decide) (by decide) (by decide), Keep.W3_of m ρ c main_arg8 (by decide) (by decide) (by decide)]
  have h0 : (y 0).val < 1 := (y 0).isLt
  exact shapeCast_apply _ _ y _ (by show (S64.rowMajor _).val = (S1x64.rowMajor y).val; rewrite [Shape.rowMajor_val_two, Shape.rowMajor_val_one]; show (y 1).val = (y 0).val * 64 + (y 1).val; omega)
/-- The head's last bias as a single entry. -/
theorem obias_at10 (y : S1x1.Idx) : W10 m ρ c (Proc.devRef .tc main_v75) y = (m ((c : Thread nD τ).loc main_arg10)) (Cert.ReferenceIdeal.ReadP.idx_main_v84 y) := by
  show StableHlo.after hostOps4 (W9 m ρ c) (Proc.devRef .tc main_v75) y = _
  after_results
  rw [Keep.W9_of m ρ c main_arg10 (by decide) (by decide) (by decide) (by decide) (by decide) (by decide), Keep.W3_of m ρ c main_arg10 (by decide) (by decide) (by decide)]
  have h0 : (y 0).val < 1 := (y 0).isLt
  have h1 : (y 1).val < 1 := (y 1).isLt
  exact shapeCast_apply _ _ y _ (by show (S1.rowMajor _).val = (S1x1.rowMajor y).val; rewrite [Shape.rowMajor_val_two, Shape.rowMajor_val_one]; show (0 : Nat) = (y 0).val * 1 + (y 1).val; omega)

/-- The fifth region's output: the head applied to the pooled features. -/
theorem head_at11 : W11 m ρ c (Proc.devRef .tc main_v76) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W11_arr m ρ c 5).trans (Head.array (V10 m ρ) c _ _ _ _ _ _ _ _ _ _ _ (pool_at10 m ρ c)
    ((Keep.W10_of m ρ c main_arg7 (by decide) (by decide) (by decide) (by decide) (by decide) (by decide) (by decide)).trans (Keep.W3_of m ρ c main_arg7 (by decide) (by decide) (by decide)))
    (hbias_at10 m ρ c)
    ((Keep.W10_of m ρ c main_arg9 (by decide) (by decide) (by decide) (by decide) (by decide) (by decide) (by decide)).trans (Keep.W3_of m ρ c main_arg9 (by decide) (by decide) (by decide)))
    (obias_at10 m ρ c))

/-- THE RESULT: what the last boundary holds at the result's reference is the reference program's last stage of the
    launch arguments. -/
theorem result_at12 : W12 m ρ c (Proc.devRef .tc main_v77) = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps5 (W11 m ρ c) (Proc.devRef .tc main_v77) = _
  after_results
  rw [head_at11]
  rfl

end Cert.KernelIdeal.Chain

end
-- ==== Proof.lean ====
/-
  The claim: a two-layer graph convolution with mean pooling and a two-layer readout, computed by five tiled
  kernel regions between stretches of host operations, against the same network written with whole-array
  operations.  On the extended reals the two programs compute one function of the arguments.  Every host
  operation around the regions (the edge endpoints with self loops, the degree count, its inverse square root
  where positive, the per-edge weights, each layer's gather, scale and scatter-add, the per-graph sums, counts
  and quotient, the final reshape) appears in both programs with the same operands.  Each region is the
  reference's stage of the same place: a matmul of a block of rows into a zero accumulator is those rows of the
  whole `dot_general` (both are the sum over the contracted axis of the products; the casts to the narrower
  float format are the identity), and adding a bias row to a block and cutting off at zero is those rows of the
  broadcast add and the maximum with a zero splat.  No law beyond that is used: no term is moved across a sum,
  so the precondition (finite inputs) is never opened.
  The frames of the two kernel programs are the generated ones; the reference's frame is its run with the result
  dropped; the idealization rewrote nothing, so `preserves` asks nothing.  `algebraic`: the kernel program's run
  ends with its result at the last boundary's contents (KernelRun), which is the reference's last stage of the
  arguments (Chain, over the region modules); the reference's run ends at the same stage of its own arguments,
  which agree.
-/
import proofs.«117743_j53549652246670_1_alg».proof.Defs
import proofs.«117743_j53549652246670_1_alg».proof.Proof.Gen.Kernel
import proofs.«117743_j53549652246670_1_alg».proof.Proof.Gen.Kernel.Frame
import proofs.«117743_j53549652246670_1_alg».proof.Proof.Gen.KernelIdeal
import proofs.«117743_j53549652246670_1_alg».proof.Proof.Gen.KernelIdeal.Frame
import proofs.«117743_j53549652246670_1_alg».proof.Proof.Gen.ReferenceIdeal
import proofs.«117743_j53549652246670_1_alg».proof.Proof.Gen.Pre_finite_inputs
import proofs.«117743_j53549652246670_1_alg».proof.Proof.RefRunP
import proofs.«117743_j53549652246670_1_alg».proof.Proof.RefReadP
import proofs.«117743_j53549652246670_1_alg».proof.Proof.KernelRun
import proofs.«117743_j53549652246670_1_alg».proof.Proof.Chain
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- Both runs end with their result at the reference's last stage of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun _ h c => ⟨(h c).1.trans (Cert.KernelIdeal.Chain.result_at12 m ρ c), (h c).2⟩)
      (Cert.KernelIdeal.Result.run (F := Ideal) m ρ)
  · refine (θ_run Cert.ReferenceIdeal.defs _ _).mono (fun _ h c => ⟨(h c).1.trans ?_, (h c).2⟩) (Cert.ReferenceIdeal.ValueP.run (F := Ideal) m' ρ')
    obtain ⟨e0, e1, e2, e3, e4, e5, e6, e7, e8, e9, e10⟩ := hagree c
    rw [Cert.ReferenceIdeal.ReadP.val_main_v87_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
